-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x128 .f32) (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S131072x128 .f32) (main_arg1 : FVec F S131072x128 .f32) (main_arg2 : FVec F S131072x128 .f32) (main_arg3 : FVec F S512x128 .f32) (main_arg4 : FVec F S512 .f32) (main_arg5 : FVec F S512x128 .f32) (main_arg6 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S131072x128 : Shape := ⟨2, ![131072, 128]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S4096x128 : Shape := ⟨2, ![4096, 128]⟩
abbrev S4096x512 : Shape := ⟨2, ![4096, 512]⟩

abbrev nBuf : Space → Nat
  | .hbm => 15
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S128x512, .f32⟩
  | .hbm, ⟨8, _⟩ => ⟨S128x512, .bf16⟩
  | .hbm, ⟨9, _⟩ => ⟨S128x512, .f32⟩
  | .hbm, ⟨10, _⟩ => ⟨S128x512, .bf16⟩
  | .hbm, ⟨11, _⟩ => ⟨S512, .f32⟩
  | .hbm, ⟨12, _⟩ => ⟨S1x512, .f32⟩
  | .hbm, ⟨13, _⟩ => ⟨S131072x128, .f32⟩
  | .hbm, ⟨14, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x128_S128x512_1_0 : S512x128.Transposes [1, 0] S128x512
  bitsLt_bf16_f32 : FTy.bits .bf16 < FTy.bits .f32
  shapeCasts_S512_S1x512 : S512.ShapeCasts S1x512
  inb_S4096x128_S4096x128_0_0 : ∀ a, (![0, 0] : Fin 2 → Nat) a + S4096x128.size a ≤ S4096x128.size a
  h_S4096x128 : 0 < S4096x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S131072x128.size a
  hwx0_7 : ∀ i : grid0.Coords, EltTy.bits .f32 = 32 ∨ (Rect.block (s := S131072x128) S4096x128.size (cc0_transform_7 i) (hinb0_7 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S128x512 : Shape := ⟨2, ![128, 512]⟩
abbrev S131072x512 : Shape := ⟨2, ![131072, 512]⟩
abbrev S1x512 : Shape := ⟨2, ![1, 512]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S512, .f32⟩
  | .hbm, ⟨7, _⟩ => ⟨S128x512, .f32⟩
  | .hbm, ⟨8, _⟩ => ⟨S131072x512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S128x512, .f32⟩
  | .hbm, ⟨13, _⟩ => ⟨S131072x512, .f32⟩
  | .hbm, ⟨14, _⟩ => ⟨S131072x512, .f32⟩
  | .hbm, ⟨15, _⟩ => ⟨S1x512, .f32⟩
  | .hbm, ⟨16, _⟩ => ⟨S131072x512, .f32⟩
  | .hbm, ⟨17, _⟩ => ⟨S131072x512, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S_, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.GateTile.lean ====
/-
  The kernel body's pre-activation tile, read at an entry.

  The body forms, from a 4096-row block of `x` and of `h`, the two staged weight matrices (128 × 512 each)
  and the staged bias row (1 × 512), the tile `x·Wx + h·Wh + bias` of 4096 × 512 pre-activations: two matrix
  products into zero accumulators, their sum, and the bias row spread over the rows. On the extended reals the
  narrowing of the operands to bf16 changes nothing, so the entry `(p, j)` of that tile is
      (Σ_k x(p,k)·Wx(k,j) + Σ_k h(p,k)·Wh(k,j)) + bias(0,j).
-/
import proofs.«126547_j60988535603585_2_alg».proof.Proof.Gen.KernelIdeal.Skeleton
import proofs.«126547_j60988535603585_2_alg».proof.Proof.LibPlainDot
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-- One of the body's two products at `(p, j)`: the left block narrowed to bf16, the right one recast to its own
    shape, contracted over the 128 shared positions into a zero accumulator. -/
theorem product_apply (A : FVec Ideal S4096x128 .f32) (B : FVec Ideal S128x512 .bf16) (p : Fin 4096) (j : Fin 512) :
    matmul (F := Ideal) dot_S4096x128_S128x512_S4096x512_1_0_0_1_n_n none (truncf .bf16 A bitsLt_bf16_f32)
        (shapeCast S128x512 B shapeCasts_S128x512_S128x512) (constant S4096x512 .f32 0x00000000#32) (ix2 p j)
      = ∑ k : Fin 128, A (ix2 p k) * B (ix2 k j) := by
  rw [shapeCast_self]
  refine (Ideal.matmul_constant_zero_apply _ none _ _ (ix2 p j)).trans ?_
  exact Cert.PlainDot.contraction_eq (M := 4096) (K := 128) (N := 512) A B p j

/-- The pre-activation tile at `(p, j)`. -/
theorem preAct_tile (P0 P1 : Vec Ideal S4096x128 .f32) (P2 P3 : Vec Ideal S128x512 .bf16) (P4 : Vec Ideal S1x512 .f32)
    (p : Fin 4096) (j : Fin 512) :
    k0_pay1 (F := Ideal) P0 P1 P2 P3 P4 (ix2 p j)
      = (∑ k : Fin 128, P0 (ix2 p k) * P2 (ix2 k j) + ∑ k : Fin 128, P1 (ix2 p k) * P3 (ix2 k j))
          + P4 (ix2 (0 : Fin 1) j) := by
  have hb : broadcastTo S4096x512 (shapeCast S1x512 P4 shapeCasts_S1x512_S1x512) broadcasts_S1x512_S4096x512 (ix2 p j)
      = P4 (ix2 (0 : Fin 1) j) := by
    rw [shapeCast_self]
    exact broadcastTo_1b_ab_apply P4 _ p j
  rw [← product_apply P0 P2 p j, ← product_apply P1 P3 p j, ← hb]
  rfl

end Cert.KernelIdeal.Tile

end
-- ==== Proof.CellSpec.lean ====
/-
  One step of an LSTM cell as one function of its argument arrays, on the extended reals.

  For a batch row `r` and a gate column `j < 512` the pre-activation is
      g(r, j) = (Σ_k x(r,k)·Wx(j,k) + Σ_k h(r,k)·Wh(j,k)) + (bx(j) + bh(j)).
  The four blocks of 128 columns are the input, forget, candidate and output gates. With σ the logistic
  function `1 / (1 + e^(-g))`,
      c'(r,q) = σ(g(r, q+128))·c(r,q) + σ(g(r, q))·tanh(g(r, q+256)),
      h'(r,q) = σ(g(r, q+384))·tanh(c'(r,q)).
  Two small laws sit beside the definitions. The pre-activation grouped as
  ((Σ x·Wx + bx) + Σ h·Wh) + bh is the same number: addition on the extended reals is commutative and
  associative at every entry, infinite ones included, so nothing here asks an input to be finite. And σ spelt
  out with the word of 1.0 as numerator and first summand is the logistic function.
-/
import Idealize.ShloMosaic.PureOps.Ideal
import Idealize.ShloMosaic.Lib.ValueIdx

noncomputable section

namespace Cert.LstmCell

open Idealize.ShloMosaic Idealize.ShloMosaic.ValueIdx
open scoped BigOperators

/-- The batch arrays `x`, `h`, `c` and both results: 131072 rows of 128 entries. -/
abbrev SRows : Shape := ⟨2, ![131072, 128]⟩
/-- A weight matrix: one row of 128 entries per gate column. -/
abbrev SWeight : Shape := ⟨2, ![512, 128]⟩
/-- A bias vector: one entry per gate column. -/
abbrev SBias : Shape := ⟨1, ![512]⟩

variable (x h c : SRows.Idx → EReal) (wx wh : SWeight.Idx → EReal) (bx bh : SBias.Idx → EReal)

/-- Column `q` of the block of 128 gate columns that starts at column `o`. -/
abbrev gateCol (o : Nat) (ho : o + 128 ≤ 512) (q : Fin 128) : Fin 512 := ⟨q.val + o, by omega⟩

/-- The pre-activation of gate column `j` on batch row `r`: both products first, the two biases added to each other. -/
def preAct (r : Fin 131072) (j : Fin 512) : EReal :=
  (∑ k : Fin 128, x (ix2 r k) * wx (ix2 j k) + ∑ k : Fin 128, h (ix2 r k) * wh (ix2 j k)) + (bx (ix1 j) + bh (ix1 j))

/-- The cell update on numbers: from the input, forget and candidate pre-activations `gi`, `gf`, `gc` and the
    old state, `σ(gf)·c + σ(gi)·tanh(gc)`. -/
def cellOf (gi gf gc cOld : EReal) : EReal :=
  Ideal.logistic gf * cOld + Ideal.logistic gi * Ideal.tanh gc

/-- The hidden update on numbers: from the output pre-activation `go` and the new state, `σ(go)·tanh(c')`. -/
def hiddenOf (go cNew : EReal) : EReal :=
  Ideal.logistic go * Ideal.tanh cNew

/-- The new cell state at `(r, q)`: forget gate times the old state plus input gate times the candidate. -/
def cellAt (r : Fin 131072) (q : Fin 128) : EReal :=
  cellOf (preAct x h wx wh bx bh r (gateCol 0 (by norm_num) q)) (preAct x h wx wh bx bh r (gateCol 128 (by norm_num) q))
    (preAct x h wx wh bx bh r (gateCol 256 (by norm_num) q)) (c (ix2 r q))

/-- The new hidden state at `(r, q)`: output gate times tanh of the new cell state. -/
def hiddenAt (r : Fin 131072) (q : Fin 128) : EReal :=
  hiddenOf (preAct x h wx wh bx bh r (gateCol 384 (by norm_num) q)) (cellAt x h c wx wh bx bh r q)

/-- The new cell state as a whole array. -/
def cellArr : SRows.Idx → EReal := fun i => cellAt x h c wx wh bx bh (i 0) (i 1)

/-- The new hidden state as a whole array. -/
def hiddenArr : SRows.Idx → EReal := fun i => hiddenAt x h c wx wh bx bh (i 0) (i 1)

/-- The same pre-activation with each bias added right after its own product: a regrouping of four summands. -/
theorem preAct_regroup (r : Fin 131072) (j : Fin 512) :
    ((∑ k : Fin 128, x (ix2 r k) * wx (ix2 j k) + bx (ix1 j)) + ∑ k : Fin 128, h (ix2 r k) * wh (ix2 j k)) + bh (ix1 j)
      = preAct x h wx wh bx bh r j := by
  unfold preAct
  rw [add_add_add_comm, add_assoc]

/-- The word `0x3F800000` is the number one. -/
theorem one_word : Ideal.ofBits .f32 0x3F800000#32 = 1 := by
  simp [Ideal.ofBits, Ideal.ieee, -EReal.coe_mul]; norm_num

/-- `1 / (1 + e^(-g))` written with the word of 1.0 is the logistic function of `g`. -/
theorem logistic_spelt (g : EReal) :
    Ideal.div (Ideal.ofBits .f32 0x3F800000#32) (Ideal.ofBits .f32 0x3F800000#32 + Ideal.exp (-g)) = Ideal.logistic g := by
  rw [one_word]; rfl

end Cert.LstmCell

end
-- ==== Proof.BlockCell.lean ====
/-
  What the kernel body leaves in its two output blocks, entry by entry.

  At one grid point the body holds a block of 4096 rows of `x`, `h` and `c`, the two staged weight matrices and
  the staged bias row. Its pre-activation tile has, at row `p` and gate column `j`,
      pre(p, j) = (Σ_k x(p,k)·Wx(k,j) + Σ_k h(p,k)·Wh(k,j)) + bias(0,j),
  and the two stored blocks are the cell update and the hidden update of the four column blocks of that tile:
  the new cell state at `(p, q)` reads columns `q`, `q+128`, `q+256`, the new hidden state column `q+384` and
  the new cell state.
-/
import proofs.«126547_j60988535603585_2_alg».proof.Proof.Gen.KernelIdeal.Value
import proofs.«126547_j60988535603585_2_alg».proof.Proof.GateTile
import proofs.«126547_j60988535603585_2_alg».proof.Proof.CellSpec

noncomputable section

namespace Cert.KernelIdeal.Block

open Cert.KernelIdeal Cert.KernelIdeal.Gen Idealize.ShloMosaic Idealize.ShloMosaic.ValueIdx
open Cert.LstmCell (gateCol cellOf hiddenOf)
open scoped BigOperators

/-- The pre-activation at row `p` of the block and gate column `j`. -/
def pre (X H : FVec Ideal S4096x128 .f32) (WX WH : FVec Ideal S128x512 .bf16) (B : FVec Ideal S1x512 .f32)
    (p : Fin 4096) (j : Fin 512) : EReal :=
  (∑ k : Fin 128, X (ix2 p k) * WX (ix2 k j) + ∑ k : Fin 128, H (ix2 p k) * WH (ix2 k j)) + B (ix2 (0 : Fin 1) j)

/-- The body's loads and stores all start at the origin of their buffers. -/
theorem origin : (![0, 0] : Fin 2 → Nat) = fun _ => 0 := funext fun a => by fin_cases a <;> rfl

/-- The block of new cell states: entry `y` is the cell update of row `y 0`'s pre-activations in columns
    `y 1`, `y 1 + 128`, `y 1 + 256` and the old state at `y`. -/
theorem cell_block (X H C : FVec Ideal S4096x128 .f32) (WX WH : FVec Ideal S128x512 .bf16) (B : FVec Ideal S1x512 .f32)
    (y : S4096x128.Idx) :
    out0_7 (F := Ideal) X H C WX WH B y
      = cellOf (pre X H WX WH B (y 0) (gateCol 0 (by norm_num) (y 1))) (pre X H WX WH B (y 0) (gateCol 128 (by norm_num) (y 1)))
          (pre X H WX WH B (y 0) (gateCol 256 (by norm_num) (y 1))) (C y) := by
  obtain ⟨p, q, rfl⟩ : ∃ (p : Fin 4096) (q : Fin 128), y = ix2 p q := ⟨y 0, y 1, eq_ix2 y⟩
  unfold out0_7
  simp only [View.ld_unit_zero (S := S4096x128) origin, View.ld_unit_zero (S := S128x512) origin,
    View.ld_unit_zero (S := S1x512) origin]
  rw [Value.canon7_eq]
  have i0 : Value.ix7_0 (ix2 p q) = ix2 p (gateCol 128 (by norm_num) q) :=
    funext fun a => by match a with | ⟨0, _⟩ => rfl | ⟨1, _⟩ => rfl
  have i1 : Value.ix7_1 (ix2 p q) = ix2 p q :=
    funext fun a => by match a with | ⟨0, _⟩ => rfl | ⟨1, _⟩ => rfl
  have i2 : Value.ix7_2 (ix2 p q) = ix2 p (gateCol 0 (by norm_num) q) :=
    funext fun a => by match a with | ⟨0, _⟩ => rfl | ⟨1, _⟩ => rfl
  have i3 : Value.ix7_3 (ix2 p q) = ix2 p (gateCol 256 (by norm_num) q) :=
    funext fun a => by match a with | ⟨0, _⟩ => rfl | ⟨1, _⟩ => rfl
  show Ideal.logistic (k0_pay1 (F := Ideal) X H WX WH B (Value.ix7_0 (ix2 p q))) * C (Value.ix7_1 (ix2 p q))
      + Ideal.logistic (k0_pay1 (F := Ideal) X H WX WH B (Value.ix7_2 (ix2 p q)))
        * Ideal.tanh (k0_pay1 (F := Ideal) X H WX WH B (Value.ix7_3 (ix2 p q))) = _
  rw [i0, i1, i2, i3, Tile.preAct_tile, Tile.preAct_tile, Tile.preAct_tile]
  rfl

/-- The block of new hidden states: entry `y` is the hidden update of row `y 0`'s pre-activation in column
    `y 1 + 384` and the new cell state at `y`. -/
theorem hidden_block (X H C : FVec Ideal S4096x128 .f32) (WX WH : FVec Ideal S128x512 .bf16) (B : FVec Ideal S1x512 .f32)
    (y : S4096x128.Idx) :
    out0_6 (F := Ideal) X H C WX WH B y
      = hiddenOf (pre X H WX WH B (y 0) (gateCol 384 (by norm_num) (y 1)))
          (cellOf (pre X H WX WH B (y 0) (gateCol 0 (by norm_num) (y 1))) (pre X H WX WH B (y 0) (gateCol 128 (by norm_num) (y 1)))
            (pre X H WX WH B (y 0) (gateCol 256 (by norm_num) (y 1))) (C y)) := by
  obtain ⟨p, q, rfl⟩ : ∃ (p : Fin 4096) (q : Fin 128), y = ix2 p q := ⟨y 0, y 1, eq_ix2 y⟩
  unfold out0_6
  simp only [View.ld_unit_zero (S := S4096x128) origin, View.ld_unit_zero (S := S128x512) origin,
    View.ld_unit_zero (S := S1x512) origin]
  rw [Value.canon6_eq]
  have i0 : Value.ix6_0 (ix2 p q) = ix2 p (gateCol 384 (by norm_num) q) :=
    funext fun a => by match a with | ⟨0, _⟩ => rfl | ⟨1, _⟩ => rfl
  have i1 : Value.ix6_1 (ix2 p q) = ix2 p (gateCol 128 (by norm_num) q) :=
    funext fun a => by match a with | ⟨0, _⟩ => rfl | ⟨1, _⟩ => rfl
  have i2 : Value.ix6_2 (ix2 p q) = ix2 p q :=
    funext fun a => by match a with | ⟨0, _⟩ => rfl | ⟨1, _⟩ => rfl
  have i3 : Value.ix6_3 (ix2 p q) = ix2 p (gateCol 0 (by norm_num) q) :=
    funext fun a => by match a with | ⟨0, _⟩ => rfl | ⟨1, _⟩ => rfl
  have i4 : Value.ix6_4 (ix2 p q) = ix2 p (gateCol 256 (by norm_num) q) :=
    funext fun a => by match a with | ⟨0, _⟩ => rfl | ⟨1, _⟩ => rfl
  show Ideal.logistic (k0_pay1 (F := Ideal) X H WX WH B (Value.ix6_0 (ix2 p q)))
      * Ideal.tanh (Ideal.logistic (k0_pay1 (F := Ideal) X H WX WH B (Value.ix6_1 (ix2 p q))) * C (Value.ix6_2 (ix2 p q))
        + Ideal.logistic (k0_pay1 (F := Ideal) X H WX WH B (Value.ix6_3 (ix2 p q)))
          * Ideal.tanh (k0_pay1 (F := Ideal) X H WX WH B (Value.ix6_4 (ix2 p q)))) = _
  rw [i0, i1, i2, i3, i4, Tile.preAct_tile, Tile.preAct_tile, Tile.preAct_tile, Tile.preAct_tile]
  rfl

end Cert.KernelIdeal.Block

end
-- ==== Proof.Staged.lean ====
/-
  What the kernel's program stages before its one region, read at an entry.

  Ahead of the region the program transposes each weight matrix (512 × 128 to 128 × 512) and narrows it to bf16,
  and adds the two bias vectors and recasts the sum as one row (1 × 512). On the extended reals the narrowing is
  the identity, so the staged matrices hold `Wx(j,k)` and `Wh(j,k)` at `(k, j)`, and the staged row holds
  `bx(j) + bh(j)` at `(0, j)`.
-/
import proofs.«126547_j60988535603585_2_alg».proof.Proof.Gen.KernelIdeal.Frame
import Idealize.ShloMosaic.Lib.ValueLayout
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The staged input weights at `(k, j)` are `Wx(j, k)`. -/
theorem wx_apply (c : Dev nD) (k : Fin 128) (j : Fin 512) :
    V m c main_v1 (ix2 k j) = m ((c : Thread nD τ).loc main_arg3) (ix2 j k) := by
  have e : (V m c main_v1 : S128x512.Idx → EReal)
      = truncf (F := Ideal) .bf16 (transpose S128x512 [1, 0] (m ((c : Thread nD τ).loc main_arg3)) transposes_S512x128_S128x512_1_0) bitsLt_bf16_f32 := by
    dsimp only [Gen.V, Gen.hostOps0]; after_results
  rw [e]
  exact transpose_ix2_apply (m ((c : Thread nD τ).loc main_arg3)) transposes_S512x128_S128x512_1_0 k j

/-- The staged recurrent weights at `(k, j)` are `Wh(j, k)`. -/
theorem wh_apply (c : Dev nD) (k : Fin 128) (j : Fin 512) :
    V m c main_v3 (ix2 k j) = m ((c : Thread nD τ).loc main_arg5) (ix2 j k) := by
  have e : (V m c main_v3 : S128x512.Idx → EReal)
      = truncf (F := Ideal) .bf16 (transpose S128x512 [1, 0] (m ((c : Thread nD τ).loc main_arg5)) transposes_S512x128_S128x512_1_0) bitsLt_bf16_f32 := by
    dsimp only [Gen.V, Gen.hostOps0]; after_results
  rw [e]
  exact transpose_ix2_apply (m ((c : Thread nD τ).loc main_arg5)) transposes_S512x128_S128x512_1_0 k j

/-- The staged bias row at `(0, j)` is `bx(j) + bh(j)`. -/
theorem bias_apply (c : Dev nD) (j : Fin 512) :
    V m c main_v5 (ix2 (0 : Fin 1) j)
      = addf (F := Ideal) (φ := .f32) (s := S512) (m ((c : Thread nD τ).loc main_arg4)) (m ((c : Thread nD τ).loc main_arg6)) (ix1 j) := by
  have e : (V m c main_v5 : S1x512.Idx → EReal)
      = shapeCast S1x512 (addf (F := Ideal) (φ := .f32) (s := S512) (m ((c : Thread nD τ).loc main_arg4)) (m ((c : Thread nD τ).loc main_arg6))) shapeCasts_S512_S1x512 := by
    dsimp only [Gen.V, Gen.hostOps0]; after_results; rfl
  rw [e]
  exact shapeCast_a_1a_apply _ shapeCasts_S512_S1x512 (0 : Fin 1) j

end Cert.KernelIdeal.Staged

end
-- ==== Proof.CellArrays.lean ====
/-
  From the kernel's blocks to its two result arrays.

  The grid has 32 points; point `t` works on rows `4096·t … 4096·t + 4095` of `x`, `h`, `c` and of both
  results, and sees the staged weights and bias whole at every point. So row `p` of a point's block is batch row
  `4096·t + p`, the block pre-activation there is the specification's pre-activation of that batch row, and what
  the point writes back is the block of the specification's result arrays under it. The 32 blocks tile the 131072
  rows (batch row `r` lies in the block of point `r / 4096`), so after the run each result array is the
  specification's array, whole.
-/
import proofs.«126547_j60988535603585_2_alg».proof.Proof.Gen.KernelIdeal.Value
import proofs.«126547_j60988535603585_2_alg».proof.Proof.BlockCell
import proofs.«126547_j60988535603585_2_alg».proof.Proof.Staged
import proofs.«126547_j60988535603585_2_alg».proof.Proof.CellSpec

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)
open Cert.LstmCell
open scoped BigOperators

variable (m : (ℓ : Loc nD τ sig) → Buf (Elt Ideal) ℓ) (ρ : Dev nD → PrngReg)

/-- The printed index maps over the 32 grid points: the five batch windows (`x`, `h`, `c` and the two results)
    sit at block row `t`, block column 0; the weights and the bias row are always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The batch row under row `p` of point `t`'s block. -/
def rowOf (t : Fin cfg0.N) (p : Fin 4096) : Fin 131072 :=
  ⟨t.val * 4096 + p.val, by have ht := t.isLt; have hp := p.isLt; have hN : cfg0.N = 32 := N_0; omega⟩

/-! ## Where a block's entry sits in its array

A block's entry sits at block index × block size + its coordinate inside the block, on each axis: entry `(p, q)` of a
batch block at point `t` is array entry `(4096·t + p, q)`; the weight and bias blocks are their whole arrays. -/

theorem emb_x (t : Fin cfg0.N) (p : Fin 4096) (q : Fin 128) :
    ((cfg0.win 0).blk t).view.emb (ix2 p q) = ix2 (rowOf t p) q := by
  obtain ⟨e0, e1, -⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 128 + 1 * q.val = q.val; omega

theorem emb_h (t : Fin cfg0.N) (p : Fin 4096) (q : Fin 128) :
    ((cfg0.win 1).blk t).view.emb (ix2 p q) = ix2 (rowOf t p) q := by
  obtain ⟨-, -, e0, e1, -⟩ := idx_facts t
  funext a; apply Fin.ext
  match a with
  | ⟨0, _⟩ => show win0_1.index t (0 : Fin 2) * 4096 + 1 * p.val = t.val * 4096 + p.val; omega
  | ⟨1, _⟩ => show win0_1.index t (1 : Fin 2) * 128 + 1 * q.val = q.val; omega

theorem emb_c (t : Fin cfg0.N) (p : Fin 4096) (q : Fin 128) :
    ((cfg0.win 2).blk t).view.emb (ix2 p q) = ix2 (rowOf t p) q := by
  obtain ⟨-, -, -, -, e0, e1, -⟩ := idx_facts t
  funext a; apply Fin.ext
  match a with
  | ⟨0, _⟩ => show win0_2.index t (0 : Fin 2) * 4096 + 1 * p.val = t.val * 4096 + p.val; omega
  | ⟨1, _⟩ => show win0_2.index t (1 : Fin 2) * 128 + 1 * q.val = q.val; omega

theorem emb_wx (t : Fin cfg0.N) (k : Fin 128) (j : Fin 512) :
    ((cfg0.win 3).blk t).view.emb (ix2 k j) = ix2 k j := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 512 + 1 * j.val = j.val; omega

theorem emb_wh (t : Fin cfg0.N) (k : Fin 128) (j : Fin 512) :
    ((cfg0.win 4).blk t).view.emb (ix2 k j) = ix2 k j := by
  obtain ⟨-, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 512 + 1 * j.val = j.val; omega

theorem emb_bias (t : Fin cfg0.N) (u : Fin 1) (j : Fin 512) :
    ((cfg0.win 5).blk t).view.emb (ix2 u j) = ix2 u j := by
  obtain ⟨-, -, -, -, -, -, -, -, -, -, e0, e1, -⟩ := idx_facts t
  funext a; apply Fin.ext
  match a with
  | ⟨0, _⟩ => show win0_5.index t (0 : Fin 2) * 1 + 1 * u.val = u.val; omega
  | ⟨1, _⟩ => show win0_5.index t (1 : Fin 2) * 512 + 1 * j.val = j.val; omega

theorem emb_hidden (t : Fin cfg0.N) (p : Fin 4096) (q : Fin 128) :
    ((cfg0.win 6).blk t).view.emb (ix2 p q) = ix2 (rowOf t p) q := by
  obtain ⟨-, -, -, -, -, -, -, -, -, -, -, -, e0, e1, -⟩ := idx_facts t
  funext a; apply Fin.ext
  match a with
  | ⟨0, _⟩ => show win0_6.index t (0 : Fin 2) * 4096 + 1 * p.val = t.val * 4096 + p.val; omega
  | ⟨1, _⟩ => show win0_6.index t (1 : Fin 2) * 128 + 1 * q.val = q.val; omega

theorem emb_cell (t : Fin cfg0.N) (p : Fin 4096) (q : Fin 128) :
    ((cfg0.win 7).blk t).view.emb (ix2 p q) = ix2 (rowOf t p) q := by
  obtain ⟨-, -, -, -, -, -, -, -, -, -, -, -, -, -, e0, e1⟩ := idx_facts t
  funext a; apply Fin.ext
  match a with
  | ⟨0, _⟩ => show win0_7.index t (0 : Fin 2) * 4096 + 1 * p.val = t.val * 4096 + p.val; omega
  | ⟨1, _⟩ => show win0_7.index t (1 : Fin 2) * 128 + 1 * q.val = q.val; omega

/-! ## The input blocks at a point, read off the arguments

The three batch blocks are rows of `x`, `h`, `c`; the staged weight blocks hold `Wx(j,k)`, `Wh(j,k)` at `(k, j)`; the
staged bias block holds `bx(j) + bh(j)` at `(0, j)`. -/

theorem x_block (c : Dev nD) (t : Fin cfg0.N) (p : Fin 4096) (k : Fin 128) :
    iblk m c 0 t (ix2 p k) = m ((c : Thread nD τ).loc main_arg0) (ix2 (rowOf t p) k) := by
  show V m c main_arg0 (((cfg0.win 0).blk t).view.emb (ix2 p k)) = _
  rw [emb_x, V_main_arg0]

theorem h_block (c : Dev nD) (t : Fin cfg0.N) (p : Fin 4096) (k : Fin 128) :
    iblk m c 1 t (ix2 p k) = m ((c : Thread nD τ).loc main_arg1) (ix2 (rowOf t p) k) := by
  show V m c main_arg1 (((cfg0.win 1).blk t).view.emb (ix2 p k)) = _
  rw [emb_h, V_main_arg1]

theorem c_block (c : Dev nD) (t : Fin cfg0.N) (p : Fin 4096) (q : Fin 128) :
    iblk m c 2 t (ix2 p q) = m ((c : Thread nD τ).loc main_arg2) (ix2 (rowOf t p) q) := by
  show V m c main_arg2 (((cfg0.win 2).blk t).view.emb (ix2 p q)) = _
  rw [emb_c, V_main_arg2]

theorem wx_block (c : Dev nD) (t : Fin cfg0.N) (k : Fin 128) (j : Fin 512) :
    iblk m c 3 t (ix2 k j) = m ((c : Thread nD τ).loc main_arg3) (ix2 j k) := by
  show V m c main_v1 (((cfg0.win 3).blk t).view.emb (ix2 k j)) = _
  rw [emb_wx, Staged.wx_apply]

theorem wh_block (c : Dev nD) (t : Fin cfg0.N) (k : Fin 128) (j : Fin 512) :
    iblk m c 4 t (ix2 k j) = m ((c : Thread nD τ).loc main_arg5) (ix2 j k) := by
  show V m c main_v3 (((cfg0.win 4).blk t).view.emb (ix2 k j)) = _
  rw [emb_wh, Staged.wh_apply]

theorem bias_block (c : Dev nD) (t : Fin cfg0.N) (j : Fin 512) :
    iblk m c 5 t (ix2 (0 : Fin 1) j)
      = addf (F := Ideal) (φ := .f32) (s := S512) (m ((c : Thread nD τ).loc main_arg4)) (m ((c : Thread nD τ).loc main_arg6)) (ix1 j) := by
  show V m c main_v5 (((cfg0.win 5).blk t).view.emb (ix2 (0 : Fin 1) j)) = _
  rw [emb_bias, Staged.bias_apply]

/-- The block pre-activation at row `p` of point `t` is the specification's pre-activation of batch row `4096·t + p`. -/
theorem pre_point (c : Dev nD) (t : Fin cfg0.N) (p : Fin 4096) (j : Fin 512) :
    Block.pre (iblk m c 0 t) (iblk m c 1 t) (iblk m c 3 t) (iblk m c 4 t) (iblk m c 5 t) p j
      = preAct (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (rowOf t p) j := by
  unfold Block.pre preAct
  simp only [x_block, h_block, wx_block, wh_block, bias_block]
  rfl

/-! ## What a point writes back -/

/-- Point `t` writes back its block of the specification's new cell states. -/
theorem flushed_cell (c : Dev nD) (t : Fin cfg0.N) :
    (dats m 0 c).flushed 7 t
      = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed7]
  funext y
  obtain ⟨p, q, rfl⟩ : ∃ (p : Fin 4096) (q : Fin 128), y = ix2 p q := ⟨y 0, y 1, eq_ix2 y⟩
  show out0_7 (F := Ideal) (iblk m c 0 t) (iblk m c 1 t) (iblk m c 2 t) (iblk m c 3 t) (iblk m c 4 t) (iblk m c 5 t) (ix2 p q)
      = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb (ix2 p q))
  rw [emb_cell]
  refine (Block.cell_block (iblk m c 0 t) (iblk m c 1 t) (iblk m c 2 t) (iblk m c 3 t) (iblk m c 4 t) (iblk m c 5 t) (ix2 p q)).trans ?_
  show cellOf (Block.pre (iblk m c 0 t) (iblk m c 1 t) (iblk m c 3 t) (iblk m c 4 t) (iblk m c 5 t) p (gateCol 0 (by norm_num) q))
      (Block.pre (iblk m c 0 t) (iblk m c 1 t) (iblk m c 3 t) (iblk m c 4 t) (iblk m c 5 t) p (gateCol 128 (by norm_num) q))
      (Block.pre (iblk m c 0 t) (iblk m c 1 t) (iblk m c 3 t) (iblk m c 4 t) (iblk m c 5 t) p (gateCol 256 (by norm_num) q))
      (iblk m c 2 t (ix2 p q)) = cellAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (rowOf t p) q
  rw [pre_point, pre_point, pre_point, c_block]
  rfl

/-- Point `t` writes back its block of the specification's new hidden states. -/
theorem flushed_hidden (c : Dev nD) (t : Fin cfg0.N) :
    (dats m 0 c).flushed 6 t
      = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed6]
  funext y
  obtain ⟨p, q, rfl⟩ : ∃ (p : Fin 4096) (q : Fin 128), y = ix2 p q := ⟨y 0, y 1, eq_ix2 y⟩
  show out0_6 (F := Ideal) (iblk m c 0 t) (iblk m c 1 t) (iblk m c 2 t) (iblk m c 3 t) (iblk m c 4 t) (iblk m c 5 t) (ix2 p q)
      = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 6).blk t).view.emb (ix2 p q))
  rw [emb_hidden]
  refine (Block.hidden_block (iblk m c 0 t) (iblk m c 1 t) (iblk m c 2 t) (iblk m c 3 t) (iblk m c 4 t) (iblk m c 5 t) (ix2 p q)).trans ?_
  show hiddenOf (Block.pre (iblk m c 0 t) (iblk m c 1 t) (iblk m c 3 t) (iblk m c 4 t) (iblk m c 5 t) p (gateCol 384 (by norm_num) q))
      (cellOf (Block.pre (iblk m c 0 t) (iblk m c 1 t) (iblk m c 3 t) (iblk m c 4 t) (iblk m c 5 t) p (gateCol 0 (by norm_num) q))
        (Block.pre (iblk m c 0 t) (iblk m c 1 t) (iblk m c 3 t) (iblk m c 4 t) (iblk m c 5 t) p (gateCol 128 (by norm_num) q))
        (Block.pre (iblk m c 0 t) (iblk m c 1 t) (iblk m c 3 t) (iblk m c 4 t) (iblk m c 5 t) p (gateCol 256 (by norm_num) q))
        (iblk m c 2 t (ix2 p q))) = hiddenAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (rowOf t p) q
  rw [pre_point, pre_point, pre_point, pre_point, c_block]
  rfl

/-! ## The blocks tile the rows -/

/-- A batch index is in point `t`'s block of the cell-state array iff each coordinate is in the block's range. -/
theorem mem_cell_blk (t : Fin cfg0.N) (i : S131072x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v6_1).slice (win0_7.rect t)).set ↔ _
  rw [View.set_slice_whole, Rect.mem_set_unit]
  exact Iff.rfl

/-- The same for the hidden-state array. -/
theorem mem_hidden_blk (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v6_0).slice (win0_6.rect t)).set ↔ _
  rw [View.set_slice_whole, Rect.mem_set_unit]
  exact Iff.rfl

/-- Batch row `r` lies in the block of point `r / 4096`: every index of the cell-state array is written back. -/
theorem cover_cell (i : S131072x128.Idx) :
    ∃ t : Fin cfg0.N, (cfg0.win 7).flush t = true ∧ i ∈ ((cfg0.win 7).blk t).view.set := by
  have hi0 : (i 0).val < 131072 := (i 0).isLt
  have hi1 : (i 1).val < 128 := (i 1).isLt
  have hN : cfg0.N = 32 := N_0
  have ht : (i 0).val / 4096 < cfg0.N := by omega
  obtain ⟨-, -, -, -, -, -, -, -, -, -, -, -, -, -, e0, e1⟩ := idx_facts ⟨(i 0).val / 4096, ht⟩
  have e0' : win0_7.index ⟨(i 0).val / 4096, ht⟩ (0 : Fin 2) = (i 0).val / 4096 := e0
  refine ⟨⟨(i 0).val / 4096, ht⟩, flush0_7 _, ?_⟩
  rw [mem_cell_blk]
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    omega
  | ⟨1, _⟩ =>
    show win0_7.index ⟨(i 0).val / 4096, ht⟩ (1 : Fin 2) * 128 ≤ (i 1).val
      ∧ (i 1).val < win0_7.index ⟨(i 0).val / 4096, ht⟩ (1 : Fin 2) * 128 + 128
    omega

/-- Every index of the hidden-state array is written back. -/
theorem cover_hidden (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  have hN : cfg0.N = 32 := N_0
  have ht : (i 0).val / 4096 < cfg0.N := by omega
  obtain ⟨-, -, -, -, -, -, -, -, -, -, -, -, e0, e1, -⟩ := idx_facts ⟨(i 0).val / 4096, ht⟩
  have e0' : win0_6.index ⟨(i 0).val / 4096, ht⟩ (0 : Fin 2) = (i 0).val / 4096 := e0
  refine ⟨⟨(i 0).val / 4096, ht⟩, flush0_6 _, ?_⟩
  rw [mem_hidden_blk]
  intro a
  match a with
  | ⟨0, _⟩ =>
    show win0_6.index ⟨(i 0).val / 4096, ht⟩ (0 : Fin 2) * 4096 ≤ (i 0).val
      ∧ (i 0).val < win0_6.index ⟨(i 0).val / 4096, ht⟩ (0 : Fin 2) * 4096 + 4096
    omega
  | ⟨1, _⟩ =>
    show win0_6.index ⟨(i 0).val / 4096, ht⟩ (1 : Fin 2) * 128 ≤ (i 1).val
      ∧ (i 1).val < win0_6.index ⟨(i 0).val / 4096, ht⟩ (1 : Fin 2) * 128 + 128
    omega

/-! ## The arrays after the run -/

/-- After the run the cell-state array is the specification's, whole. -/
theorem final_cell (c : Dev nD) :
    (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 _ (fun t _ => flushed_cell m c t) cover_cell

/-- After the run the hidden-state array is the specification's, whole. -/
theorem final_hidden (c : Dev nD) :
    (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 6 _ (fun t _ => flushed_hidden m c t) cover_hidden

/-- The kernel's run: every weakly fair execution ends with the first result at the specification's hidden-state
    array, the second at its cell-state array, and the arguments as launched. -/
theorem run : θ_run defs (onTc (τ := τ) (main (F := Ideal))) ⟨m, fun _ => 0, ρ⟩ fun r => ∀ c : Dev nD,
      r.2.mem ((c : Thread nD τ).loc main_v6_0) = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v6_1) = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Arrays

end
-- ==== Proof.RefCell.lean ====
/-
  The reference program's two results are the cell step of its arguments.

  The reference forms the pre-activations as ((x·Wxᵀ + bx) + h·Whᵀ) + bh over the whole batch, cuts the 512
  columns into four blocks of 128, applies σ spelt as 1 / (1 + e^(-g)) to the first, second and fourth block and
  tanh to the third, and combines them: `c' = σ(f)·c + σ(i)·tanh(g)`, `h' = σ(o)·tanh(c')`. Read entry by entry
  that is the cell step of the specification: the pre-activation is the same sum of four terms regrouped, and the
  spelt-out σ is the logistic function.
-/
import proofs.«126547_j60988535603585_2_alg».proof.Proof.Gen.ReferenceIdeal.Read
import proofs.«126547_j60988535603585_2_alg».proof.Proof.CellSpec

noncomputable section

namespace Cert.ReferenceIdeal.RefCell

open Cert.ReferenceIdeal Cert.ReferenceIdeal.Gen Cert.ReferenceIdeal.Read Idealize.ShloMosaic Idealize.ShloMosaic.ValueIdx
open Cert.LstmCell
open scoped BigOperators

variable (x0 x1 x2 : FVec Ideal S131072x128 .f32) (x3 : FVec Ideal S512x128 .f32) (x4 : FVec Ideal S512 .f32)
  (x5 : FVec Ideal S512x128 .f32) (x6 : FVec Ideal S512 .f32)

/-- The reference's pre-activation array at `(r, j)` is the specification's pre-activation. -/
theorem pre_apply (r : Fin 131072) (j : Fin 512) :
    val_main_v10 (F := Ideal) x0 x1 x3 x4 x5 x6 (ix2 r j) = preAct x0 x1 x3 x5 x4 x6 r j := by
  have el1 : ∀ k : Fin 128, lidx_main_v1 (ix2 r j) k = ix2 r k := fun k =>
    funext fun a => by match a with | ⟨0, _⟩ => rfl | ⟨1, _⟩ => rfl
  have er1 : ∀ k : Fin 128, idx_main_v0 (ridx_main_v1 (ix2 r j) k) = ix2 j k := fun k =>
    funext fun a => by match a with | ⟨0, _⟩ => rfl | ⟨1, _⟩ => rfl
  have el6 : ∀ k : Fin 128, lidx_main_v6 (ix2 r j) k = ix2 r k := fun k =>
    funext fun a => by match a with | ⟨0, _⟩ => rfl | ⟨1, _⟩ => rfl
  have er6 : ∀ k : Fin 128, idx_main_v5 (ridx_main_v6 (ix2 r j) k) = ix2 j k := fun k =>
    funext fun a => by match a with | ⟨0, _⟩ => rfl | ⟨1, _⟩ => rfl
  have eb2 : idx_main_v2 (idx_main_v3 (ix2 r j)) = ix1 j :=
    funext fun a => by match a with | ⟨0, _⟩ => rfl
  have eb8 : idx_main_v8 (idx_main_v9 (ix2 r j)) = ix1 j :=
    funext fun a => by match a with | ⟨0, _⟩ => rfl
  rw [val_main_v10_apply, val_main_v7_apply, val_main_v4_apply, val_main_v1_apply, val_main_v6_apply,
    val_main_v3_apply, val_main_v2_apply, val_main_v9_apply, val_main_v8_apply]
  simp only [val_main_v0_apply, val_main_v5_apply, el1, er1, el6, er6, eb2, eb8]
  exact preAct_regroup x0 x1 x3 x5 x4 x6 r j

/-- The four column slices read, at `(r, q)`, the pre-activation array at `(r, q)`, `(r, q + 128)`, `(r, q + 256)` and
    `(r, q + 384)`. -/
theorem slice0 (r : Fin 131072) (q : Fin 128) : idx_main_v11 (ix2 r q) = ix2 r (gateCol 0 (by norm_num) q) :=
  funext fun a => by match a with | ⟨0, _⟩ => rfl | ⟨1, _⟩ => rfl
theorem slice1 (r : Fin 131072) (q : Fin 128) : idx_main_v12 (ix2 r q) = ix2 r (gateCol 128 (by norm_num) q) :=
  funext fun a => by match a with | ⟨0, _⟩ => rfl | ⟨1, _⟩ => exact Fin.ext (Nat.add_comm 128 q.val)
theorem slice2 (r : Fin 131072) (q : Fin 128) : idx_main_v13 (ix2 r q) = ix2 r (gateCol 256 (by norm_num) q) :=
  funext fun a => by match a with | ⟨0, _⟩ => rfl | ⟨1, _⟩ => exact Fin.ext (Nat.add_comm 256 q.val)
theorem slice3 (r : Fin 131072) (q : Fin 128) : idx_main_v14 (ix2 r q) = ix2 r (gateCol 384 (by norm_num) q) :=
  funext fun a => by match a with | ⟨0, _⟩ => rfl | ⟨1, _⟩ => exact Fin.ext (Nat.add_comm 384 q.val)

/-- The input gate at `(r, q)`. -/
theorem gate_i (r : Fin 131072) (q : Fin 128) :
    val_main_v20 (F := Ideal) x0 x1 x3 x4 x5 x6 (ix2 r q)
      = Ideal.logistic (preAct x0 x1 x3 x5 x4 x6 r (gateCol 0 (by norm_num) q)) := by
  rw [val_main_v20_apply, val_main_v19_apply, val_main_cst_0_apply, val_main_v18_apply, val_main_v17_apply, val_main_cst_apply,
    val_main_v16_apply, val_main_v15_apply, val_main_v11_apply, slice0, pre_apply]
  exact logistic_spelt _

/-- The forget gate at `(r, q)`. -/
theorem gate_f (r : Fin 131072) (q : Fin 128) :
    val_main_v26 (F := Ideal) x0 x1 x3 x4 x5 x6 (ix2 r q)
      = Ideal.logistic (preAct x0 x1 x3 x5 x4 x6 r (gateCol 128 (by norm_num) q)) := by
  rw [val_main_v26_apply, val_main_v25_apply, val_main_cst_2_apply, val_main_v24_apply, val_main_v23_apply, val_main_cst_1_apply,
    val_main_v22_apply, val_main_v21_apply, val_main_v12_apply, slice1, pre_apply]
  exact logistic_spelt _

/-- The candidate at `(r, q)`. -/
theorem cand (r : Fin 131072) (q : Fin 128) :
    val_main_v27 (F := Ideal) x0 x1 x3 x4 x5 x6 (ix2 r q)
      = Ideal.tanh (preAct x0 x1 x3 x5 x4 x6 r (gateCol 256 (by norm_num) q)) := by
  rw [val_main_v27_apply, val_main_v13_apply, slice2, pre_apply]
  rfl

/-- The output gate at `(r, q)`. -/
theorem gate_o (r : Fin 131072) (q : Fin 128) :
    val_main_v33 (F := Ideal) x0 x1 x3 x4 x5 x6 (ix2 r q)
      = Ideal.logistic (preAct x0 x1 x3 x5 x4 x6 r (gateCol 384 (by norm_num) q)) := by
  rw [val_main_v33_apply, val_main_v32_apply, val_main_cst_4_apply, val_main_v31_apply, val_main_v30_apply, val_main_cst_3_apply,
    val_main_v29_apply, val_main_v28_apply, val_main_v14_apply, slice3, pre_apply]
  exact logistic_spelt _

/-- The reference's second result is the new cell state of its arguments. -/
theorem cell_eq : val_main_v36 (F := Ideal) x0 x1 x2 x3 x4 x5 x6 = cellArr x0 x1 x2 x3 x5 x4 x6 := by
  funext i
  obtain ⟨r, q, rfl⟩ : ∃ (r : Fin 131072) (q : Fin 128), i = ix2 r q := ⟨i 0, i 1, eq_ix2 i⟩
  rw [val_main_v36_apply, val_main_v34_apply, val_main_v35_apply, gate_f, gate_i, cand]
  rfl

/-- The reference's first result is the new hidden state of its arguments. -/
theorem hidden_eq : val_main_v38 (F := Ideal) x0 x1 x2 x3 x4 x5 x6 = hiddenArr x0 x1 x2 x3 x5 x4 x6 := by
  funext i
  obtain ⟨r, q, rfl⟩ : ∃ (r : Fin 131072) (q : Fin 128), i = ix2 r q := ⟨i 0, i 1, eq_ix2 i⟩
  rw [val_main_v38_apply, val_main_v37_apply, gate_o]
  have hc := congrFun (cell_eq x0 x1 x2 x3 x4 x5 x6) (ix2 r q)
  rw [hc]
  rfl

end Cert.ReferenceIdeal.RefCell

end
-- ==== Proof.lean ====
/-
  One step of an LSTM cell over a batch of 131072 rows: a tiled kernel against the plain array program.

  Both programs take `x`, `h`, `c` (131072 × 128), the weights `Wx`, `Wh` (512 × 128) and the biases `bx`, `bh`
  (512), and return the new hidden state and the new cell state. With the pre-activation
      g(r, j) = Σ_k x(r,k)·Wx(j,k) + Σ_k h(r,k)·Wh(j,k) + bx(j) + bh(j)
  and σ the logistic function,
      c'(r,q) = σ(g(r, q+128))·c(r,q) + σ(g(r, q))·tanh(g(r, q+256)),   h'(r,q) = σ(g(r, q+384))·tanh(c'(r,q)).
  The kernel transposes the weights and adds the two biases once, ahead of a grid of 32 points; each point takes
  4096 rows, forms its tile of pre-activations by two matrix products and the bias row, and stores the two
  updated blocks. The reference forms all pre-activations at once, adding each bias after its own product, and
  spells σ as 1 / (1 + e^(-g)). On the extended reals the two results agree entry by entry: the 32 blocks tile
  the rows, the pre-activation is one sum of four terms grouped in two ways (addition is commutative and
  associative at every extended real, so finiteness of the inputs is never used), and the spelt-out σ is the
  logistic function. The kernel's idealized program is its printed program read on the extended reals, with no
  rewrite to account for.

  Modules: CellSpec (the cell step as one function of the arrays, and the two small laws), GateTile (the body's
  pre-activation tile at an entry), BlockCell (the two stored blocks at an entry), Staged (the transposed
  weights and the bias row at an entry), CellArrays (blocks to whole arrays, and the kernel's run), RefCell (the
  reference's results are the cell step), and the claims below.
-/
import proofs.«126547_j60988535603585_2_alg».proof.Defs
import proofs.«126547_j60988535603585_2_alg».proof.Proof.Gen.Kernel
import proofs.«126547_j60988535603585_2_alg».proof.Proof.Gen.Kernel.Skeleton
import proofs.«126547_j60988535603585_2_alg».proof.Proof.Gen.Kernel.Launch
import proofs.«126547_j60988535603585_2_alg».proof.Proof.Gen.Kernel.Points
import proofs.«126547_j60988535603585_2_alg».proof.Proof.Gen.Kernel.Frame
import proofs.«126547_j60988535603585_2_alg».proof.Proof.Gen.KernelIdeal
import proofs.«126547_j60988535603585_2_alg».proof.Proof.Gen.KernelIdeal.Skeleton
import proofs.«126547_j60988535603585_2_alg».proof.Proof.Gen.KernelIdeal.Launch
import proofs.«126547_j60988535603585_2_alg».proof.Proof.Gen.KernelIdeal.Points
import proofs.«126547_j60988535603585_2_alg».proof.Proof.Gen.KernelIdeal.Frame
import proofs.«126547_j60988535603585_2_alg».proof.Proof.Gen.ReferenceIdeal
import proofs.«126547_j60988535603585_2_alg».proof.Proof.Gen.Pre_finite_inputs
import proofs.«126547_j60988535603585_2_alg».proof.Proof.Gen.KernelIdeal.Value
import proofs.«126547_j60988535603585_2_alg».proof.Proof.Gen.ReferenceIdeal.Run
import proofs.«126547_j60988535603585_2_alg».proof.Proof.Gen.ReferenceIdeal.Read
import proofs.«126547_j60988535603585_2_alg».proof.Proof.CellArrays
import proofs.«126547_j60988535603585_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the two results dropped from the post. -/
theorem frame_reference : Cert.frame_ReferenceIdeal := fun m ρ _ =>
  (θ_run Cert.ReferenceIdeal.defs _ _).mono (fun _ h c => (h c).2.2) (Cert.ReferenceIdeal.Value.run (F := Ideal) m ρ)

/-- The idealized kernel is the printed one read on the extended reals: no operation was rewritten. -/
theorem preserves : Cert.preserves_Kernel_KernelIdeal := trivial

/-- From memories that agree on the seven arguments both programs end with the specification's hidden-state array
    as first result and its cell-state array as second: the kernel by its run over the 32 blocks, the reference
    by its run read entry by entry. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.RefCell.hidden_eq,
      (hagree c).1, (hagree c).2.1, (hagree c).2.2.1, (hagree c).2.2.2.1, (hagree c).2.2.2.2.1, (hagree c).2.2.2.2.2.1,
      (hagree c).2.2.2.2.2.2]
  · rw [Cert.ReferenceIdeal.Read.val_main_v36_eq, Cert.ReferenceIdeal.RefCell.cell_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
